-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_arg5 : FVec F S16x1024 .f32) (main_arg6 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  main_v33

def fn {F : FTy → Type} [FloatOps F] (main_arg0 : FVec F S32768x1024 .f32) (main_arg1 : FVec F S1024x1024 .f32) (main_arg2 : FVec F S1024 .f32) (main_arg3 : FVec F S16x1024 .f32) (main_arg4 : FVec F S1024x16 .f32) (main_arg5 : FVec F S16x1024 .f32) (main_arg6 : FVec F S1024x16 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S_ : Shape := ⟨0, ![]⟩
abbrev S1x1024 : Shape := ⟨2, ![1, 1024]⟩

abbrev nBuf : Space → Nat
  | .hbm => 21
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S_, .f32⟩
  | .hbm, ⟨8, _⟩ => ⟨S1024x16, .f32⟩
  | .hbm, ⟨9, _⟩ => ⟨S1024x16, .f32⟩
  | .hbm, ⟨10, _⟩ => ⟨S1024x1024, .f32⟩
  | .hbm, ⟨11, _⟩ => ⟨S_, .f32⟩
  | .hbm, ⟨12, _⟩ => ⟨S1024x16, .f32⟩
  | .hbm, ⟨13, _⟩ => ⟨S1024x16, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x16 : S_.BroadcastsInDim S1024x16 (![] : Fin 0 → Fin S1024x16.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x16_S16x1024_S1024x1024_1_0_0_1_n_n_wf : DotDims.WF S1024x16 S16x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S1x1024 : Shape := ⟨2, ![1, 1024]⟩
abbrev S32768x16 : Shape := ⟨2, ![32768, 16]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S32768x1024, .f32⟩
  | .hbm, ⟨8, _⟩ => ⟨S1x1024, .f32⟩
  | .hbm, ⟨9, _⟩ => ⟨S32768x1024, .f32⟩
  | .hbm, ⟨10, _⟩ => ⟨S32768x1024, .f32⟩
  | .hbm, ⟨11, _⟩ => ⟨S32768x16, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x16, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  dot_S32768x1024_S1024x1024_S32768x1024_1_1_0_0_n_n_wf : DotDims.WF S32768x1024 S1024x1024 S32768x1024 [1] [1] [0] [0] [] []
  dot_S32768x1024_S16x1024_S32768x16_1_1_0_0_n_n_wf : DotDims.WF S32768x1024 S16x1024 S32768x16 [1] [1] [0] [0] [] []
  dot_S32768x16_S1024x16_S32768x1024_1_1_0_0_n_n_wf : DotDims.WF S32768x16 S1024x16 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf
def dot_S32768x1024_S16x1024_S32768x16_1_1_0_0_n_n : DotDims S32768x1024 S16x1024 S32768x16 where
  lhsContracting := [1]
  rhsContracting := [1]
  lhsNonContracting := [0]
  rhsNonContracting := [0]
  lhsBatch := []
  rhsBatch := []
  wf := dot_S32768x1024_S16x1024_S32768x16_1_1_0_0_n_n_wf
def dot_S32768x16_S1024x16_S32768x1024_1_1_0_0_n_n : DotDims S32768x16 S1024x16 S32768x1024 where
  lhsContracting := [1]
  rhsContracting := [1]
  lhsNonContracting := [0]
  rhsNonContracting := [0]
  lhsBatch := []
  rhsBatch := []
  wf := dot_S32768x16_S1024x16_S32768x1024_1_1_0_0_n_n_wf

class Facts : Prop extends Facts₀ where

variable [Facts]
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.Payload.lean ====
/-
  What the kernel body stores, entry by entry.

  The body loads a block of 1024 token rows `x0`, the whole input-features-first weight `x1` and the bias row `x2`,
  multiplies `x0 · x1` into a zero accumulator and adds the bias row broadcast over the 1024 rows.  At the ideal values
  the change of float format on the way into the product is the identity, so the stored entry `(p, q)` is
  `∑ k, x0 (p, k) * x1 (k, q) + x2 (0, q)`.
-/
import proofs.«140473_j71090298683825_2_alg».proof.Proof.Gen.KernelIdeal.Skeleton
import proofs.«140473_j71090298683825_2_alg».proof.Proof.LibPlainDot
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The body's product contracts the left operand's axis 1 with the right operand's axis 0, with no batch axis. -/
theorem dot_plain : dot_S1024x1024_S1024x1024_S1024x1024_1_0_0_1_n_n = DotDims.plain 1024 1024 1024 := rfl

/-- The stored entry `(p, q)`. -/
theorem pay_apply (x0 : FVec Ideal S1024x1024 .f32) (x1 : FVec Ideal S1024x1024 .bf16) (x2 : FVec Ideal S1x1024 .f32)
    (p q : Fin 1024) :
    k0_pay1 (F := Ideal) x0 x1 x2 (ix2 p q) = ∑ k : Fin 1024, x0 (ix2 p k) * x1 (ix2 k q) + x2 (ix2 (0 : Fin 1) q) := by
  unfold k0_pay1
  refine (addf_apply _ _ _).trans ?_
  refine congrArg₂ (· + ·) ?_ ?_
  · refine (PlainDot.matmul_zero_apply _ dot_plain none _ _ p q).trans ?_
    rw [shapeCast_self]
    rfl
  · rw [shapeCast_self]
    exact broadcastTo_1b_ab_apply _ _ p q

end Cert.KernelIdeal.Body

end
-- ==== Proof.LowRankMerge.lean ====
/-
  Merging two low-rank adapters into a dense weight, as an identity of finite sums.

  For one output entry write `x k` for the input row, `W k` for the row of the dense weight that produces the entry,
  `A r k` and `B r` for the two factors of an adapter of rank `R` and `h` for its scale.  The adapter's contribution
  can be computed after the input has been projected to rank `R`,

      h * ∑ r, (∑ k, x k * A r k) * B r ,

  or it can be folded into the weight beforehand,

      ∑ k, x k * ∑ r, (B r * h) * A r k .

  Over the reals the two agree: distribute `x k` over the inner sum, exchange the two finite sums, and collect `h`
  and `B r`.  With two adapters and a bias this gives `merge_real`.  The same identity holds on the extended reals
  for entries that are real numbers (`merge_coe`): there the products and sums of coercions are the coercions of the
  real products and sums.  (On infinite entries distributivity fails, so the hypothesis is needed.)
-/
import Idealize.ShloMosaic.PureOps.Ideal

noncomputable section

namespace LowRankMerge

open Finset

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {K R : Type*} [Fintype K] [Fintype R]

/-- One adapter: folded into the weight, or applied after the projection to its rank. -/
theorem adapter_real (x : K → ℝ) (A : R → K → ℝ) (B : R → ℝ) (h : ℝ) :
    ∑ k, x k * ∑ r, (B r * h) * A r k = h * ∑ r, (∑ k, x k * A r k) * B r := by
  simp only [Finset.mul_sum, Finset.sum_mul]
  rw [Finset.sum_comm]
  exact Finset.sum_congr rfl fun r _ => Finset.sum_congr rfl fun k _ => by ring

/-- A dense layer with two adapters folded into its weight equals the dense layer followed by the two adapters. -/
theorem merge_real (x W : K → ℝ) (A1 A2 : R → K → ℝ) (B1 B2 : R → ℝ) (b h o : ℝ) :
    (∑ k, x k * (W k + (∑ r, (B1 r * h) * A1 r k + ∑ r, (B2 r * o) * A2 r k))) + b
      = ((∑ k, x k * W k + b) + h * ∑ r, (∑ k, x k * A1 r k) * B1 r) + o * ∑ r, (∑ k, x k * A2 r k) * B2 r := by
  simp only [mul_add, Finset.sum_add_distrib]
  rw [adapter_real, adapter_real]
  ring

/-- The same on the extended reals, for real entries. -/
theorem merge_coe (x W : K → ℝ) (A1 A2 : R → K → ℝ) (B1 B2 : R → ℝ) (b h o : ℝ) :
    (∑ k, (x k : EReal) * ((W k : EReal)
        + (∑ r, ((B1 r : EReal) * (h : EReal)) * (A1 r k : EReal) + ∑ r, ((B2 r : EReal) * (o : EReal)) * (A2 r k : EReal))))
        + (b : EReal)
      = ((∑ k, (x k : EReal) * (W k : EReal) + (b : EReal))
          + (h : EReal) * ∑ r, (∑ k, (x k : EReal) * (A1 r k : EReal)) * (B1 r : EReal))
        + (o : EReal) * ∑ r, (∑ k, (x k : EReal) * (A2 r k : EReal)) * (B2 r : EReal) := by
  simp only [← EReal.coe_mul, ← coe_sum, ← EReal.coe_add]
  rw [merge_real]

end LowRankMerge

end
-- ==== Proof.Spec.lean ====
/-
  The two arrangements of a linear layer with two low-rank adapters, entry by entry, and why they agree.

  Shapes: `X : [32768, 1024]` (tokens by input features), `W : [1024, 1024]` (output by input features),
  `b : [1024]`, and for each adapter `A : [16, 1024]` (rank by input features) and `B : [1024, 16]` (output features
  by rank).  The scales are the float words `0x3F000000` (one half) and `0x3F800000` (one); only the fact that
  they denote real numbers is used.

    * `mergedWeightT` is the effective weight laid out input-features-first:
        entry `(k, o)` is `W (o, k) + (∑ r, (B1 (o, r) * ½) * A1 (r, k) + ∑ r, (B2 (o, r) * 1) * A2 (r, k))`.
    * `dense X Wt brow` is a plain dense layer with a bias row `brow : [1, 1024]`:
        entry `(p, q)` is `∑ k, X (p, k) * Wt (k, q) + brow (0, q)`.
    * `adapters` applies the dense weight, then each adapter after projecting the token to rank 16:
        entry `(p, q)` is `((∑ k, X (p, k) * W (q, k) + b q) + ½ * ∑ r, (∑ k, X (p, k) * A1 (r, k)) * B1 (q, r))
                             + 1 * ∑ r, (∑ k, X (p, k) * A2 (r, k)) * B2 (q, r)`.

  For arrays of real numbers `dense X (mergedWeightT …) (row of b) = adapters …`: the identity of finite real sums
  `LowRankMerge.merge_coe`, entry by entry.
-/
import Idealize.ShloMosaic.PureOps.Ideal
import Idealize.ShloMosaic.Lib.ValueIdx
import proofs.«140473_j71090298683825_2_alg».proof.Proof.LowRankMerge

noncomputable section

namespace LoraLinear

open Idealize.ShloMosaic Idealize.ShloMosaic.ValueIdx

/-- The word `0x3F000000` denotes one half. -/
theorem half_word : Ideal.ofBits .f32 0x3F000000#32 = ((1 / 2 : ℝ) : EReal) := by
  simp [Ideal.ofBits, Ideal.ieee, -EReal.coe_mul]; norm_num

/-- The word `0x3F800000` denotes one. -/
theorem one_word : Ideal.ofBits .f32 0x3F800000#32 = ((1 : ℝ) : EReal) := by
  simp [Ideal.ofBits, Ideal.ieee, -EReal.coe_mul]; norm_num

/-- The effective weight, input features first. -/
def mergedWeightT (W : (⟨2, ![1024, 1024]⟩ : Shape).Idx → EReal)
    (A1 : (⟨2, ![16, 1024]⟩ : Shape).Idx → EReal) (B1 : (⟨2, ![1024, 16]⟩ : Shape).Idx → EReal)
    (A2 : (⟨2, ![16, 1024]⟩ : Shape).Idx → EReal) (B2 : (⟨2, ![1024, 16]⟩ : Shape).Idx → EReal) :
    (⟨2, ![1024, 1024]⟩ : Shape).Idx → EReal := fun j =>
  W (ix2 (j 1) (j 0))
    + (∑ r : Fin 16, (B1 (ix2 (j 1) r) * Ideal.ofBits .f32 0x3F000000#32) * A1 (ix2 r (j 0))
      + ∑ r : Fin 16, (B2 (ix2 (j 1) r) * Ideal.ofBits .f32 0x3F800000#32) * A2 (ix2 r (j 0)))

theorem mergedWeightT_apply (W : (⟨2, ![1024, 1024]⟩ : Shape).Idx → EReal)
    (A1 : (⟨2, ![16, 1024]⟩ : Shape).Idx → EReal) (B1 : (⟨2, ![1024, 16]⟩ : Shape).Idx → EReal)
    (A2 : (⟨2, ![16, 1024]⟩ : Shape).Idx → EReal) (B2 : (⟨2, ![1024, 16]⟩ : Shape).Idx → EReal)
    (k o : Fin 1024) :
    mergedWeightT W A1 B1 A2 B2 (ix2 k o)
      = W (ix2 o k)
        + (∑ r : Fin 16, (B1 (ix2 o r) * Ideal.ofBits .f32 0x3F000000#32) * A1 (ix2 r k)
          + ∑ r : Fin 16, (B2 (ix2 o r) * Ideal.ofBits .f32 0x3F800000#32) * A2 (ix2 r k)) := rfl

/-- A bias vector as a one-row array. -/
def biasRow (b : (⟨1, ![1024]⟩ : Shape).Idx → EReal) : (⟨2, ![1, 1024]⟩ : Shape).Idx → EReal := fun j => b (ix1 (j 1))

/-- A plain dense layer with a bias row. -/
def dense (X : (⟨2, ![32768, 1024]⟩ : Shape).Idx → EReal) (Wt : (⟨2, ![1024, 1024]⟩ : Shape).Idx → EReal)
    (brow : (⟨2, ![1, 1024]⟩ : Shape).Idx → EReal) : (⟨2, ![32768, 1024]⟩ : Shape).Idx → EReal := fun i =>
  ∑ k : Fin 1024, X (ix2 (i 0) k) * Wt (ix2 k (i 1)) + brow (ix2 (0 : Fin 1) (i 1))

theorem dense_apply (X : (⟨2, ![32768, 1024]⟩ : Shape).Idx → EReal) (Wt : (⟨2, ![1024, 1024]⟩ : Shape).Idx → EReal)
    (brow : (⟨2, ![1, 1024]⟩ : Shape).Idx → EReal) (p : Fin 32768) (q : Fin 1024) :
    dense X Wt brow (ix2 p q) = ∑ k : Fin 1024, X (ix2 p k) * Wt (ix2 k q) + brow (ix2 (0 : Fin 1) q) := rfl

/-- The dense layer followed by the two adapters, each applied after the projection to its rank. -/
def adapters (X : (⟨2, ![32768, 1024]⟩ : Shape).Idx → EReal) (W : (⟨2, ![1024, 1024]⟩ : Shape).Idx → EReal)
    (b : (⟨1, ![1024]⟩ : Shape).Idx → EReal)
    (A1 : (⟨2, ![16, 1024]⟩ : Shape).Idx → EReal) (B1 : (⟨2, ![1024, 16]⟩ : Shape).Idx → EReal)
    (A2 : (⟨2, ![16, 1024]⟩ : Shape).Idx → EReal) (B2 : (⟨2, ![1024, 16]⟩ : Shape).Idx → EReal) :
    (⟨2, ![32768, 1024]⟩ : Shape).Idx → EReal := fun i =>
  ((∑ k : Fin 1024, X (ix2 (i 0) k) * W (ix2 (i 1) k) + b (ix1 (i 1)))
      + Ideal.ofBits .f32 0x3F000000#32 * ∑ r : Fin 16, (∑ k : Fin 1024, X (ix2 (i 0) k) * A1 (ix2 r k)) * B1 (ix2 (i 1) r))
    + Ideal.ofBits .f32 0x3F800000#32 * ∑ r : Fin 16, (∑ k : Fin 1024, X (ix2 (i 0) k) * A2 (ix2 r k)) * B2 (ix2 (i 1) r)

theorem adapters_apply (X : (⟨2, ![32768, 1024]⟩ : Shape).Idx → EReal) (W : (⟨2, ![1024, 1024]⟩ : Shape).Idx → EReal)
    (b : (⟨1, ![1024]⟩ : Shape).Idx → EReal)
    (A1 : (⟨2, ![16, 1024]⟩ : Shape).Idx → EReal) (B1 : (⟨2, ![1024, 16]⟩ : Shape).Idx → EReal)
    (A2 : (⟨2, ![16, 1024]⟩ : Shape).Idx → EReal) (B2 : (⟨2, ![1024, 16]⟩ : Shape).Idx → EReal)
    (p : Fin 32768) (q : Fin 1024) :
    adapters X W b A1 B1 A2 B2 (ix2 p q)
      = ((∑ k : Fin 1024, X (ix2 p k) * W (ix2 q k) + b (ix1 q))
          + Ideal.ofBits .f32 0x3F000000#32 * ∑ r : Fin 16, (∑ k : Fin 1024, X (ix2 p k) * A1 (ix2 r k)) * B1 (ix2 q r))
        + Ideal.ofBits .f32 0x3F800000#32 * ∑ r : Fin 16, (∑ k : Fin 1024, X (ix2 p k) * A2 (ix2 r k)) * B2 (ix2 q r) := rfl

/-- On arrays of real numbers the dense layer over the merged weight is the dense layer followed by the adapters. -/
theorem dense_merged_eq_adapters (X : (⟨2, ![32768, 1024]⟩ : Shape).Idx → EReal)
    (W : (⟨2, ![1024, 1024]⟩ : Shape).Idx → EReal) (b : (⟨1, ![1024]⟩ : Shape).Idx → EReal)
    (A1 : (⟨2, ![16, 1024]⟩ : Shape).Idx → EReal) (B1 : (⟨2, ![1024, 16]⟩ : Shape).Idx → EReal)
    (A2 : (⟨2, ![16, 1024]⟩ : Shape).Idx → EReal) (B2 : (⟨2, ![1024, 16]⟩ : Shape).Idx → EReal)
    (hX : ∀ i, ∃ r : ℝ, X i = r) (hW : ∀ i, ∃ r : ℝ, W i = r) (hb : ∀ i, ∃ r : ℝ, b i = r)
    (hA1 : ∀ i, ∃ r : ℝ, A1 i = r) (hB1 : ∀ i, ∃ r : ℝ, B1 i = r)
    (hA2 : ∀ i, ∃ r : ℝ, A2 i = r) (hB2 : ∀ i, ∃ r : ℝ, B2 i = r) :
    dense X (mergedWeightT W A1 B1 A2 B2) (biasRow b) = adapters X W b A1 B1 A2 B2 := by
  funext i
  obtain ⟨p, q, rfl⟩ : ∃ (p : Fin 32768) (q : Fin 1024), i = ix2 p q := ⟨i 0, i 1, eq_ix2 i⟩
  rw [dense_apply, adapters_apply]
  simp only [mergedWeightT_apply]
  show _ + b (ix1 q) = _
  choose xr hxr using fun k : Fin 1024 => hX (ix2 p k)
  choose wr hwr using fun k : Fin 1024 => hW (ix2 q k)
  choose a1 ha1 using fun (r : Fin 16) (k : Fin 1024) => hA1 (ix2 r k)
  choose b1 hb1 using fun r : Fin 16 => hB1 (ix2 q r)
  choose a2 ha2 using fun (r : Fin 16) (k : Fin 1024) => hA2 (ix2 r k)
  choose b2 hb2 using fun r : Fin 16 => hB2 (ix2 q r)
  obtain ⟨br, hbr⟩ := hb (ix1 q)
  simp only [hxr, hwr, ha1, hb1, ha2, hb2, hbr, half_word, one_word]
  exact LowRankMerge.merge_coe xr wr a1 a2 b1 b2 br (1 / 2) 1

end LoraLinear

end
-- ==== Proof.Blocks.lean ====
/-
  From the 32 row blocks to the whole output array.

  Grid point `t` stages rows `1024 t … 1024 t + 1023` of the tokens, the whole weight and the whole bias row, and writes
  rows `1024 t … 1024 t + 1023` of the output.  What it writes at local entry `(p, q)` is the stored value of the body
  (`Body.pay_apply`) on those blocks, that is the dense layer's entry `(1024 t + p, q)`.  Row `r` of the output lies
  in the block of point `r / 1024`, so the 32 blocks cover the array and it ends holding the dense layer of the arrays
  the kernel was launched on.
-/
import proofs.«140473_j71090298683825_2_alg».proof.Proof.Gen.KernelIdeal.Value
import proofs.«140473_j71090298683825_2_alg».proof.Proof.Payload
import proofs.«140473_j71090298683825_2_alg».proof.Proof.Spec

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index of each window at each of the 32 points: the tokens and the output move down one block of rows
    per point, the weight and the bias row stay. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 32 :=
  (by decide +kernel : ∀ t : Fin grid0.N, _)

/-- One point's stored entry, given which rows of the tokens its first block holds and that the other two blocks are
    the whole weight and the whole bias row. -/
theorem stored_entry (X : FVec Ideal S32768x1024 .f32) (Wt : FVec Ideal S1024x1024 .bf16) (brow : FVec Ideal S1x1024 .f32)
    (x0 : FVec Ideal S1024x1024 .f32) (x1 : FVec Ideal S1024x1024 .bf16) (x2 : FVec Ideal S1x1024 .f32)
    (row : Fin 1024 → Fin 32768)
    (h0 : ∀ (p k : Fin 1024), x0 (ix2 p k) = X (ix2 (row p) k)) (h1 : x1 = Wt) (h2 : x2 = brow) (p q : Fin 1024) :
    k0_pay1 (F := Ideal) x0 x1 x2 (ix2 p q) = LoraLinear.dense X Wt brow (ix2 (row p) q) := by
  subst h1 h2
  rw [Body.pay_apply, LoraLinear.dense_apply]
  simp only [h0]

/-- What point `t` writes back is block `t` of the dense layer of the arrays the kernel was launched on. -/
theorem flushed_eq (c : Dev nD) (t : Fin cfg0.N) :
    (dats m 0 c).flushed 3 t
      = ((cfg0.win 3).blk t).view.read (Elt Ideal)
          (LoraLinear.dense (V m c main_arg0) (V m c main_v9) (V m c main_v10)) := by
  rw [Value.flushed3]
  unfold out0_3
  rw [View.canon_unit_zero zero_offsets]
  simp only [View.ld_unit_zero (S := S1024x1024) zero_offsets, View.ld_unit_zero (S := S1x1024) zero_offsets]
  obtain ⟨e0, e1, e2, e3, e4, e5, e6, e7, ht⟩ := index_maps t
  funext j
  obtain ⟨p, q, rfl⟩ : ∃ (p q : Fin 1024), j = ix2 p q := ⟨j 0, j 1, eq_ix2 j⟩
  have hrow : ∀ p : Fin 1024, t.val * 1024 + p.val < 32768 := fun p => by have := p.isLt; omega
  have hemb : ((cfg0.win 3).blk t).view.emb (ix2 p q) = ix2 (⟨t.val * 1024 + p.val, hrow p⟩ : Fin 32768) q := by
    funext a; apply Fin.ext
    match a with
    | ⟨0, _⟩ => show win0_3.index t (0 : Fin 2) * 1024 + 1 * p.val = t.val * 1024 + p.val; omega
    | ⟨1, _⟩ => show win0_3.index t (1 : Fin 2) * 1024 + 1 * q.val = q.val; omega
  show k0_pay1 (F := Ideal) (iblk m c 0 t) (iblk m c 1 t) (iblk m c 2 t) (ix2 p q)
      = LoraLinear.dense (V m c main_arg0) (V m c main_v9) (V m c main_v10) (((cfg0.win 3).blk t).view.emb (ix2 p q))
  rw [hemb]
  refine stored_entry (V m c main_arg0) (V m c main_v9) (V m c main_v10) (iblk m c 0 t) (iblk m c 1 t) (iblk m c 2 t)
    (fun p => ⟨t.val * 1024 + p.val, hrow p⟩) ?_ ?_ ?_ p q
  · intro p k
    show V m c main_arg0 (((cfg0.win 0).blk t).view.emb (ix2 p k)) = V m c main_arg0 _
    refine congrArg (V m c main_arg0) (funext fun a => Fin.ext ?_)
    match a with
    | ⟨0, _⟩ => show win0_0.index t (0 : Fin 2) * 1024 + 1 * p.val = t.val * 1024 + p.val; omega
    | ⟨1, _⟩ => show win0_0.index t (1 : Fin 2) * 1024 + 1 * k.val = k.val; omega
  · funext y
    show V m c main_v9 (((cfg0.win 1).blk t).view.emb y) = V m c main_v9 y
    refine congrArg (V m c main_v9) (funext fun a => Fin.ext ?_)
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  · funext y
    show V m c main_v10 (((cfg0.win 2).blk t).view.emb y) = V m c main_v10 y
    refine congrArg (V m c main_v10) (funext fun a => Fin.ext ?_)
    match a with
    | ⟨0, _⟩ => show win0_2.index t (0 : Fin 2) * 1 + 1 * (y 0).val = (y 0).val; omega
    | ⟨1, _⟩ => show win0_2.index t (1 : Fin 2) * 1024 + 1 * (y 1).val = (y 1).val; omega

/-- An index of the output lies in point `t`'s block iff each coordinate lies in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v11).slice (win0_3.rect t)).set ↔ _
  rw [View.set_slice_whole, Rect.mem_set_unit]
  exact Iff.rfl

/-- Every index of the output lies in the block of the point its row selects. -/
theorem cover (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : grid0.N = 32 := Gen.N_0
  obtain ⟨t, htv⟩ : ∃ t : Fin cfg0.N, t.val = (i 0).val / 1024 :=
    ⟨⟨(i 0).val / 1024, by show (i 0).val / 1024 < grid0.N; rw [hN]; omega⟩, rfl⟩
  obtain ⟨-, -, -, -, -, -, e6, e7, -⟩ := index_maps t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The output array after the run is the dense layer of the arrays the kernel was launched on. -/
theorem final (c : Dev nD) :
    (dats m 0 c).arrAt 3 cfg0.N = LoraLinear.dense (V m c main_arg0) (V m c main_v9) (V m c main_v10) :=
  (dats m 0 c).arrAt_eq_of_cover 3 _ (fun t _ => flushed_eq m c t) cover

end Cert.KernelIdeal.Blocks

end
-- ==== Proof.HostWeights.lean ====
/-
  The two arrays the host operations prepare before the kernel is launched.

  The weight handed to the kernel is the effective weight laid out input-features-first: the host scales each
  adapter's `B` by its constant, multiplies `B · A` (a plain product over the rank), adds the two products and the
  dense weight `W`, transposes, and changes the float format (the identity at the ideal values).  Entry `(k, o)` of
  the result is therefore `W (o, k) + (∑ r, (B1 (o, r) * ½) * A1 (r, k) + ∑ r, (B2 (o, r) * 1) * A2 (r, k))`, which is
  `LoraLinear.mergedWeightT`.  The bias handed to the kernel is the bias vector reshaped to one row.
-/
import proofs.«140473_j71090298683825_2_alg».proof.Proof.Gen.KernelIdeal.Frame
import proofs.«140473_j71090298683825_2_alg».proof.Proof.LibPlainDot
import proofs.«140473_j71090298683825_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostPrelude

open Cert.KernelIdeal Cert.KernelIdeal.Gen Idealize.ShloMosaic Idealize.ShloMosaic.TcCoe Idealize.SL.Sem
open Idealize.ShloMosaic.ValueIdx

/-- The adapters' products contract the rank: `B`'s axis 1 with `A`'s axis 0, no batch axis. -/
theorem dot_plain : dot_S1024x16_S16x1024_S1024x1024_1_0_0_1_n_n = DotDims.plain 1024 16 1024 := rfl

/-- The host operations that prepare the weight, as one function of the five arrays they read. -/
def weightOps (a1 : FVec Ideal S1024x1024 .f32) (a3 : FVec Ideal S16x1024 .f32) (a4 : FVec Ideal S1024x16 .f32)
    (a5 : FVec Ideal S16x1024 .f32) (a6 : FVec Ideal S1024x16 .f32) : FVec Ideal S1024x1024 .bf16 :=
  truncf .bf16
    (transpose S1024x1024 [1, 0]
      (addf a1
        (addf
          (Host.dotGeneral dot_S1024x16_S16x1024_S1024x1024_1_0_0_1_n_n none
            (mulf a4 (broadcastInDim S1024x16 ![] bcast_S_S1024x16 (constant (F := Ideal) S_ .f32 0x3F000000#32))) a3)
          (Host.dotGeneral dot_S1024x16_S16x1024_S1024x1024_1_0_0_1_n_n none
            (mulf a6 (broadcastInDim S1024x16 ![] bcast_S_S1024x16 (constant (F := Ideal) S_ .f32 0x3F800000#32))) a5)))
      transposes_S1024x1024_S1024x1024_1_0)
    bitsLt_bf16_f32

/-- One adapter's product `(B * scale) · A` at `(o, k)`. -/
theorem adapter_apply (a : FVec Ideal S16x1024 .f32) (b : FVec Ideal S1024x16 .f32) (w : BitVec 32) (o k : Fin 1024) :
    Host.dotGeneral dot_S1024x16_S16x1024_S1024x1024_1_0_0_1_n_n none
        (mulf b (broadcastInDim S1024x16 ![] bcast_S_S1024x16 (constant (F := Ideal) S_ .f32 w))) a (ix2 o k)
      = ∑ r : Fin 16, (b (ix2 o r) * Ideal.ofBits .f32 w) * a (ix2 r k) := by
  refine (PlainDot.dotGeneral_apply _ dot_plain none .single _ _ o k).trans ?_
  refine Finset.sum_congr rfl fun r _ => ?_
  refine congrArg₂ (· * ·) ?_ rfl
  refine (mulf_apply _ _ _).trans ?_
  refine congrArg₂ (· * ·) rfl ?_
  exact broadcastInDim_apply _ bcast_S_S1024x16 _ _ ix0 (fun a => a.elim0)

/-- The prepared weight is the effective weight, input features first. -/
theorem weightOps_eq (a1 : FVec Ideal S1024x1024 .f32) (a3 : FVec Ideal S16x1024 .f32) (a4 : FVec Ideal S1024x16 .f32)
    (a5 : FVec Ideal S16x1024 .f32) (a6 : FVec Ideal S1024x16 .f32) :
    weightOps a1 a3 a4 a5 a6 = LoraLinear.mergedWeightT a1 a3 a4 a5 a6 := by
  funext j
  obtain ⟨k, o, rfl⟩ : ∃ (k o : Fin 1024), j = ix2 k o := ⟨j 0, j 1, eq_ix2 j⟩
  rw [LoraLinear.mergedWeightT_apply]
  unfold weightOps
  refine (truncf_apply (φ := .f32) (ψ := .bf16) _ bitsLt_bf16_f32 (ix2 k o)).trans ?_
  refine (transpose_ix2_apply _ _ k o).trans ?_
  refine (addf_apply _ _ _).trans ?_
  refine congrArg₂ (· + ·) rfl ?_
  refine (addf_apply _ _ _).trans ?_
  exact congrArg₂ (· + ·) (adapter_apply a3 a4 _ o k) (adapter_apply a5 a6 _ o k)

variable (m : (ℓ : Loc nD τ sig) → Buf (Elt Ideal) ℓ)

/-- The weight array as the kernel finds it. -/
theorem V_weight (c : Dev nD) :
    (V m c main_v9 : S1024x1024.Idx → EReal)
      = LoraLinear.mergedWeightT (m ((c : Thread nD τ).loc main_arg1)) (m ((c : Thread nD τ).loc main_arg3))
          (m ((c : Thread nD τ).loc main_arg4)) (m ((c : Thread nD τ).loc main_arg5)) (m ((c : Thread nD τ).loc main_arg6)) := by
  rw [← weightOps_eq]
  dsimp only [Gen.V, Gen.hostOps0]
  after_results
  rfl

/-- The bias row as the kernel finds it. -/
theorem V_bias (c : Dev nD) :
    (V m c main_v10 : S1x1024.Idx → EReal) = LoraLinear.biasRow (m ((c : Thread nD τ).loc main_arg2)) := by
  have e : (V m c main_v10 : S1x1024.Idx → EReal)
      = shapeCast S1x1024 (m ((c : Thread nD τ).loc main_arg2)) shapeCasts_S1024_S1x1024 := by
    dsimp only [Gen.V, Gen.hostOps0]
    after_results
    rfl
  rw [e]
  funext j
  obtain ⟨u, q, rfl⟩ : ∃ (u : Fin 1) (q : Fin 1024), j = ix2 u q := ⟨j 0, j 1, eq_ix2 j⟩
  exact shapeCast_a_1a_apply _ _ u q

end Cert.KernelIdeal.HostPrelude

end
-- ==== Proof.KernelValue.lean ====
/-
  The kernel program's result as one function of its seven arguments.

  The output array is the dense layer of the arrays the kernel was launched on (`Blocks.final`); of those, the tokens
  are the first argument untouched, the weight is the effective weight the host operations prepared from `W` and the
  two adapters, and the bias row is the bias vector reshaped (`HostPrelude`).
-/
import proofs.«140473_j71090298683825_2_alg».proof.Proof.Blocks
import proofs.«140473_j71090298683825_2_alg».proof.Proof.HostWeights

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The output array after the run, from the argument arrays. -/
theorem final_args (c : Dev nD) :
    (dats m 0 c).arrAt 3 cfg0.N
      = LoraLinear.dense (m ((c : Thread nD τ).loc main_arg0))
          (LoraLinear.mergedWeightT (m ((c : Thread nD τ).loc main_arg1)) (m ((c : Thread nD τ).loc main_arg3))
            (m ((c : Thread nD τ).loc main_arg4)) (m ((c : Thread nD τ).loc main_arg5)) (m ((c : Thread nD τ).loc main_arg6)))
          (LoraLinear.biasRow (m ((c : Thread nD τ).loc main_arg2))) := by
  rw [Blocks.final, V_main_arg0, HostPrelude.V_weight, HostPrelude.V_bias]

/-- Every weakly fair execution of the kernel program terminates with the result at the dense layer over the merged
    weight, and the arguments unchanged. -/
theorem run : θ_run defs (onTc (τ := τ) (main (F := Ideal))) ⟨m, fun _ => 0, ρ⟩ fun r => ∀ c : Dev nD,
      r.2.mem ((c : Thread nD τ).loc main_v11)
        = LoraLinear.dense (m ((c : Thread nD τ).loc main_arg0))
            (LoraLinear.mergedWeightT (m ((c : Thread nD τ).loc main_arg1)) (m ((c : Thread nD τ).loc main_arg3))
              (m ((c : Thread nD τ).loc main_arg4)) (m ((c : Thread nD τ).loc main_arg5)) (m ((c : Thread nD τ).loc main_arg6)))
            (LoraLinear.biasRow (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_args m c), (h c).2⟩) (Value.run_blocks m ρ)

end Cert.KernelIdeal.KernelValue

end
-- ==== Proof.RefRead.lean ====
/-
  The reference program's result, entry by entry: it is `LoraLinear.adapters` of its seven arguments.

  Each contraction of the reference pairs the LAST axis of both operands (`x · Wᵀ`, `x · Aᵀ`, `(x · Aᵀ) · Bᵀ`), so at
  the output entry `(p, q)` the dense product reads `X (p, k)` against `W (q, k)`, the projection to rank 16 reads
  `X (p, k)` against `A (r, k)`, and the expansion reads the projected `(p, r)` against `B (q, r)`.  The bias is
  broadcast along the rows, and each adapter is scaled by a constant broadcast over the whole array.
-/
import proofs.«140473_j71090298683825_2_alg».proof.Proof.Gen.ReferenceIdeal.Read
import proofs.«140473_j71090298683825_2_alg».proof.Proof.Spec

noncomputable section

namespace Cert.ReferenceIdeal.RefValue

open Cert.ReferenceIdeal Cert.ReferenceIdeal.Read Idealize.ShloMosaic Idealize.ShloMosaic.ValueIdx

/-! The operand positions of each operation at the output entry `(p, q)`, in coordinates. -/

theorem lidx0 (p : Fin 32768) (q k : Fin 1024) : lidx_main_v0 (ix2 p q) k = ix2 p k :=
  funext fun a => Fin.ext (by match a with | ⟨0, _⟩ => rfl | ⟨1, _⟩ => rfl)
theorem ridx0 (p : Fin 32768) (q k : Fin 1024) : ridx_main_v0 (ix2 p q) k = ix2 q k :=
  funext fun a => Fin.ext (by match a with | ⟨0, _⟩ => rfl | ⟨1, _⟩ => rfl)
theorem idx2 (p : Fin 32768) (q : Fin 1024) : idx_main_v2 (ix2 p q) = ix2 (0 : Fin 1) q :=
  funext fun a => Fin.ext (by match a with | ⟨0, _⟩ => rfl | ⟨1, _⟩ => rfl)
theorem idx1 (u : Fin 1) (q : Fin 1024) : idx_main_v1 (ix2 u q) = ix1 q :=
  funext fun a => Fin.ext (by match a with | ⟨0, _⟩ => rfl)
theorem lidx4 (p : Fin 32768) (r : Fin 16) (k : Fin 1024) : lidx_main_v4 (ix2 p r) k = ix2 p k :=
  funext fun a => Fin.ext (by match a with | ⟨0, _⟩ => rfl | ⟨1, _⟩ => rfl)
theorem ridx4 (p : Fin 32768) (r : Fin 16) (k : Fin 1024) : ridx_main_v4 (ix2 p r) k = ix2 r k :=
  funext fun a => Fin.ext (by match a with | ⟨0, _⟩ => rfl | ⟨1, _⟩ => rfl)
theorem lidx5 (p : Fin 32768) (q : Fin 1024) (r : Fin 16) : lidx_main_v5 (ix2 p q) r = ix2 p r :=
  funext fun a => Fin.ext (by match a with | ⟨0, _⟩ => rfl | ⟨1, _⟩ => rfl)
theorem ridx5 (p : Fin 32768) (q : Fin 1024) (r : Fin 16) : ridx_main_v5 (ix2 p q) r = ix2 q r :=
  funext fun a => Fin.ext (by match a with | ⟨0, _⟩ => rfl | ⟨1, _⟩ => rfl)
theorem lidx9 (p : Fin 32768) (r : Fin 16) (k : Fin 1024) : lidx_main_v9 (ix2 p r) k = ix2 p k :=
  funext fun a => Fin.ext (by match a with | ⟨0, _⟩ => rfl | ⟨1, _⟩ => rfl)
theorem ridx9 (p : Fin 32768) (r : Fin 16) (k : Fin 1024) : ridx_main_v9 (ix2 p r) k = ix2 r k :=
  funext fun a => Fin.ext (by match a with | ⟨0, _⟩ => rfl | ⟨1, _⟩ => rfl)
theorem lidx10 (p : Fin 32768) (q : Fin 1024) (r : Fin 16) : lidx_main_v10 (ix2 p q) r = ix2 p r :=
  funext fun a => Fin.ext (by match a with | ⟨0, _⟩ => rfl | ⟨1, _⟩ => rfl)
theorem ridx10 (p : Fin 32768) (q : Fin 1024) (r : Fin 16) : ridx_main_v10 (ix2 p q) r = ix2 q r :=
  funext fun a => Fin.ext (by match a with | ⟨0, _⟩ => rfl | ⟨1, _⟩ => rfl)

/-- The reference's result is the dense layer followed by the two adapters. -/
theorem result_eq (x0 : FVec Ideal S32768x1024 .f32) (x1 : FVec Ideal S1024x1024 .f32) (x2 : FVec Ideal S1024 .f32)
    (x3 : FVec Ideal S16x1024 .f32) (x4 : FVec Ideal S1024x16 .f32) (x5 : FVec Ideal S16x1024 .f32)
    (x6 : FVec Ideal S1024x16 .f32) :
    val_main_v13 (F := Ideal) x0 x1 x2 x3 x4 x5 x6 = LoraLinear.adapters x0 x1 x2 x3 x4 x5 x6 := by
  funext i
  obtain ⟨p, q, rfl⟩ : ∃ (p : Fin 32768) (q : Fin 1024), i = ix2 p q := ⟨i 0, i 1, eq_ix2 i⟩
  rw [LoraLinear.adapters_apply]
  simp only [val_main_v13_apply, val_main_v8_apply, val_main_v3_apply, val_main_v0_apply, val_main_v2_apply,
    val_main_v1_apply, val_main_v7_apply, val_main_v6_apply, val_main_cst_apply, val_main_v5_apply, val_main_v4_apply,
    val_main_v12_apply, val_main_v11_apply, val_main_cst_0_apply, val_main_v10_apply, val_main_v9_apply,
    lidx0, ridx0, idx2, idx1, lidx4, ridx4, lidx5, ridx5, lidx9, ridx9, lidx10, ridx10,
    Ideal.addf_def, Ideal.mulf_def, Ideal.ofBits_def]

end Cert.ReferenceIdeal.RefValue

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.FiniteInputs.lean ====
/-
  What the precondition says: every entry of every argument array is a real number.

  The precondition is the conjunction, over the seven argument arrays, of `all (|a| < +inf)`.  Each conjunct makes
  every entry of its array a real number (`FiniteAll.all_real`), and the conjunction of the seven is `true` only if
  each of them is.
-/
import proofs.«140473_j71090298683825_2_alg».proof.Pre_finite_inputs
import proofs.«140473_j71090298683825_2_alg».proof.Proof.LibFiniteAll

noncomputable section

namespace Cert.FiniteInputs

open Idealize.ShloMosaic Idealize.ShloMosaic.FiniteAll Cert.Pre_finite_inputs

variable [Facts]

/-- The precondition holds only of arrays of real numbers. -/
theorem reals (a0 : FVec Ideal S32768x1024 .f32) (a1 : FVec Ideal S1024x1024 .f32) (a2 : FVec Ideal S1024 .f32)
    (a3 : FVec Ideal S16x1024 .f32) (a4 : FVec Ideal S1024x16 .f32) (a5 : FVec Ideal S16x1024 .f32)
    (a6 : FVec Ideal S1024x16 .f32) (h : fn (F := Ideal) a0 a1 a2 a3 a4 a5 a6 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) := by
  have h0 := congrFun h ValueIdx.ix0
  dsimp only [fn, fn_part1] at h0
  obtain ⟨h1, e6⟩ := IntOp.andi_eq_one.1 h0
  obtain ⟨h2, e5⟩ := IntOp.andi_eq_one.1 h1
  obtain ⟨h3, e4⟩ := IntOp.andi_eq_one.1 h2
  obtain ⟨h4, e3⟩ := IntOp.andi_eq_one.1 h3
  obtain ⟨h5, e2⟩ := IntOp.andi_eq_one.1 h4
  obtain ⟨e0, e1⟩ := IntOp.andi_eq_one.1 h5
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6⟩

end Cert.FiniteInputs

end
-- ==== Proof.lean ====
/-
  The proof of `Cert.Claim`: a linear layer with two rank-16 adapters, computed by a kernel over a merged weight,
  equals the reference that applies the dense weight and then each adapter.

  The kernel program first forms, on the host, the effective weight `W + ½ · B1 · A1 + 1 · B2 · A2` laid out input
  features first (Proof/HostWeights.lean), then runs 32 grid points, each writing 1024 rows of
  `x · Wt + b` (Proof/Payload.lean for one point's stored value, Proof/Blocks.lean for the whole array,
  Proof/KernelValue.lean for the result as a function of the arguments).  The reference computes
  `(x · Wᵀ + b) + ½ · ((x · A1ᵀ) · B1ᵀ) + 1 · ((x · A2ᵀ) · B2ᵀ)` (Proof/RefRead.lean).  Entry by entry both are finite sums
  of products of the arguments' entries; the precondition makes every entry a real number (Proof/FiniteInputs.lean),
  and over the reals the two arrangements agree by distributing and exchanging finite sums (Proof/LowRankMerge.lean,
  Proof/Spec.lean).  Changes of float format are the identity at the ideal values, so nothing else differs.

  The three frames are the generated ones (the reference's is its run with the result dropped), and the idealized
  kernel is the kernel's own text read at the ideal values, so there is nothing to preserve.
-/
import proofs.«140473_j71090298683825_2_alg».proof.Defs
import proofs.«140473_j71090298683825_2_alg».proof.Proof.Gen.Kernel
import proofs.«140473_j71090298683825_2_alg».proof.Proof.Gen.Kernel.Frame
import proofs.«140473_j71090298683825_2_alg».proof.Proof.Gen.KernelIdeal
import proofs.«140473_j71090298683825_2_alg».proof.Proof.Gen.KernelIdeal.Frame
import proofs.«140473_j71090298683825_2_alg».proof.Proof.Gen.KernelIdeal.Value
import proofs.«140473_j71090298683825_2_alg».proof.Proof.Gen.ReferenceIdeal
import proofs.«140473_j71090298683825_2_alg».proof.Proof.Gen.ReferenceIdeal.Run
import proofs.«140473_j71090298683825_2_alg».proof.Proof.Gen.ReferenceIdeal.Read
import proofs.«140473_j71090298683825_2_alg».proof.Proof.Gen.Pre_finite_inputs
import proofs.«140473_j71090298683825_2_alg».proof.Proof.KernelValue
import proofs.«140473_j71090298683825_2_alg».proof.Proof.RefRead
import proofs.«140473_j71090298683825_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the same array: the kernel's dense layer over the merged weight is, on real entries, the
    reference's dense layer followed by the two adapters. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  obtain ⟨h0, h1, h2, h3, h4, h5, h6⟩ := Cert.FiniteInputs.reals _ _ _ _ _ _ _ (hpre c)
  rw [Cert.ReferenceIdeal.Read.val_main_v13_eq, Cert.ReferenceIdeal.RefValue.result_eq, e0, e1, e2, e3, e4, e5, e6]
  exact (LoraLinear.dense_merged_eq_adapters _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
